-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x1024 .f32) (main_arg1 : FVec F S4096x1024 .f32) (main_arg2 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x1024 : Shape := ⟨2, ![8192, 1024]⟩
abbrev S4096x1024 : Shape := ⟨2, ![4096, 1024]⟩
abbrev S4096 : Shape := ⟨1, ![4096]⟩
abbrev S1x4096 : Shape := ⟨2, ![1, 4096]⟩
abbrev S8192x4096 : Shape := ⟨2, ![8192, 4096]⟩
abbrev S2048x1024 : Shape := ⟨2, ![2048, 1024]⟩
abbrev S1x512 : Shape := ⟨2, ![1, 512]⟩
abbrev S2048x512 : Shape := ⟨2, ![2048, 512]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S2048x1024, .f32⟩
  | .local _ .vmem, ⟨1, _⟩ => ⟨S2048x1024, .f32⟩
  | .local _ .vmem, ⟨2, _⟩ => ⟨S4096x1024, .f32⟩
  | .local _ .vmem, ⟨3, _⟩ => ⟨S1x512, .f32⟩
  | .local _ .vmem, ⟨4, _⟩ => ⟨S1x512, .f32⟩
  | .local _ .vmem, ⟨5, _⟩ => ⟨S2048x512, .f32⟩
  | .local _ .vmem, ⟨6, _⟩ => ⟨S2048x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  h_S512x1024 : 0 < S512x1024.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x1024_S512x1024_S2048x512_1_1_0_0_n_n_wf : DotDims.WF S2048x1024 S512x1024 S2048x512 [1] [1] [0] [0] [] []
  hrank0 : 0 < grid0.rank
  k0_mult1_dvd : ∀ i : grid0.Coords, 512 ∣ (k0_mult1 i).toNat
  k0_off1_inb : ∀ i : grid0.Coords, ∀ a, (k0_off1 i) a + S512x1024.size a ≤ S4096x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .f32 = 32 ∨ (Rect.block (s := S4096x1024) S4096x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x4096.size a
  hwx0_3 : ∀ i : grid0.Coords, EltTy.bits .f32 = 32 ∨ (Rect.block (s := S8192x4096) S2048x512.size (cc0_transform_3 i) (hinb0_3 i)).WholeWords (EltTy.packing .f32)

variable [Facts₀]

def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | .hbm, ⟨7, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x1024_S4096x1024_S8192x4096_1_1_0_0_n_n_wf : DotDims.WF S8192x1024 S4096x1024 S8192x4096 [1] [1] [0] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.Spec.lean ====
/-
  The common value of the two programs, as one function of the argument arrays.

  For an activation matrix x of 8192 rows by 1024 features, a weight matrix W of 4096 neurons by 1024 features and a
  bias vector b of 4096 entries, entry (s, n) of the result is

      tanh ( Σ_k x[s, k] · W[n, k]  +  b[n] )

  over the extended reals: the inner product of row s of x with row n of W, shifted by the neuron's bias, through
  the hyperbolic tangent. Nothing here depends on a program; the two sides are each shown to compute this function.
-/
import Idealize.ShloMosaic.PureOps.Ideal
import Idealize.ShloMosaic.Lib.ValueIdx

noncomputable section

namespace Cert.Dense

open Idealize.ShloMosaic Idealize.ShloMosaic.ValueIdx

/-- The pre-activation of neuron `n` on row `s`: the inner product over the 1024 features, plus the bias. -/
def preact (x : (⟨2, ![8192, 1024]⟩ : Shape).Idx → EReal) (W : (⟨2, ![4096, 1024]⟩ : Shape).Idx → EReal)
    (b : (⟨1, ![4096]⟩ : Shape).Idx → EReal) (s : Fin 8192) (n : Fin 4096) : EReal :=
  (∑ k : Fin 1024, x (ix2 s k) * W (ix2 n k)) + b (ix1 n)

/-- The dense layer: every entry the hyperbolic tangent of its pre-activation. -/
def layer (x : (⟨2, ![8192, 1024]⟩ : Shape).Idx → EReal) (W : (⟨2, ![4096, 1024]⟩ : Shape).Idx → EReal)
    (b : (⟨1, ![4096]⟩ : Shape).Idx → EReal) : (⟨2, ![8192, 4096]⟩ : Shape).Idx → EReal :=
  fun i => Ideal.tanh (preact x W b (i 0) (i 1))

end Cert.Dense

end
-- ==== Proof.RefDense.lean ====
/-
  The reference computes the dense layer.

  The reference forms the whole inner-product matrix x · Wᵀ by one contraction over the 1024 features, spreads the
  bias along the rows (first to a single row of 4096, then down the 8192 rows), adds, and applies the hyperbolic
  tangent. Read at an entry (s, n) this is tanh (Σ_k x[s,k]·W[n,k] + b[n]): each broadcast only forgets the row
  coordinate, so the bias met at (s, n) is b[n].
-/
import proofs.«118267_j57492432224774_2_alg».proof.Proof.Gen.ReferenceIdeal.Read
import proofs.«118267_j57492432224774_2_alg».proof.Proof.Spec

noncomputable section

namespace Cert.Dense.Reference

open Cert.ReferenceIdeal Cert.ReferenceIdeal.Read Idealize.ShloMosaic Idealize.ShloMosaic.ValueIdx

/-- The left operand of the contraction at entry `i` and feature `k` is `x[i₀, k]`. -/
theorem lidx_eq (i : S8192x4096.Idx) (k : Fin 1024) : lidx_main_v0 i k = ix2 (i 0) k :=
  funext fun a => Fin.ext (by match a with | ⟨0, _⟩ => rfl | ⟨1, _⟩ => rfl)

/-- The right operand of the contraction at entry `i` and feature `k` is `W[i₁, k]`. -/
theorem ridx_eq (i : S8192x4096.Idx) (k : Fin 1024) : ridx_main_v0 i k = ix2 (i 1) k :=
  funext fun a => Fin.ext (by match a with | ⟨0, _⟩ => rfl | ⟨1, _⟩ => rfl)

/-- Through the two broadcasts, the bias met at entry `i` is `b[i₁]`. -/
theorem bidx_eq (i : S8192x4096.Idx) : idx_main_v1 (idx_main_v2 i) = ix1 (i 1) :=
  funext fun a => Fin.ext (by match a with | ⟨0, _⟩ => rfl)

/-- The reference's result, as a function of its three arguments, is the dense layer. -/
theorem value_eq (x : (⟨S8192x1024, .f32⟩ : BufTy).Contents (Elt Ideal)) (W : (⟨S4096x1024, .f32⟩ : BufTy).Contents (Elt Ideal))
    (b : (⟨S4096, .f32⟩ : BufTy).Contents (Elt Ideal)) :
    val_main_v4 (F := Ideal) x W b = Cert.Dense.layer x W b := by
  funext i
  rw [val_main_v4_apply, val_main_v3_apply, val_main_v0_apply, val_main_v2_apply, val_main_v1_apply]
  simp only [lidx_eq, ridx_eq, bidx_eq, Ideal.hostUnary_tanh_def, Ideal.addf_def]
  rfl

end Cert.Dense.Reference

end
-- ==== Proof.KernelTile.lean ====
/-
  What one grid step leaves in its output tile.

  A grid step (i, j) holds a tile of 2048 rows of x, the whole of W, and 512 bias entries. It takes the 512 rows of W
  that begin at row 512·j, contracts each of the 2048 rows of x with each of those 512 rows of W over the 1024
  features (a matrix product into a zero accumulator), adds the bias entry of the column to every row, applies the
  hyperbolic tangent, and stores the 2048 × 512 result as the step's whole output tile. The narrowing of both
  operands to sixteen-bit floats before the product changes nothing over the extended reals.

  So entry (p, q) of the tile is  tanh ( Σ_k xtile[p, k] · Wrows[q, k]  +  btile[0, q] ).
-/
import proofs.«118267_j57492432224774_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx

namespace Cert.Dense.Kernel

open Cert.KernelIdeal Cert.KernelIdeal.Gen

variable {F : FTy → Type} [FloatOps F]

/-- The offset pair (0, 0), however spelt, is the zero offset. -/
theorem zero_off : (![0, 0] : Fin 2 → Nat) = fun _ => 0 := funext fun a => by fin_cases a <;> rfl

/-- The step's one store covers its whole output tile, so the tile ends holding that store's value: the step's
    arithmetic applied to the 512 rows of W the step selects, the tile of x, and the tile of the bias. -/
theorem tile_eq (c : Dev nD) (i : grid0.Coords) (arg2 : Memref sig .tc .vmem S2048x1024 .f32) (harg2 : arg2.IsWhole)
    (arg3 : Memref sig .tc .vmem S4096x1024 .f32) (harg3 : arg3.IsWhole) (arg4 : Memref sig .tc .vmem S1x512 .f32) (harg4 : arg4.IsWhole)
    (arg5 : Memref sig .tc .vmem S2048x512 .f32) (harg5 : arg5.IsWhole)
    (x0 : Vec F S2048x1024 .f32) (x1 : Vec F S4096x1024 .f32) (x2 : Vec F S1x512 .f32) :
    out0_A_3 c i arg2 harg2 arg3 harg3 arg4 harg4 arg5 harg5 x0 x1 x2
      = k0_pay1 (View.ld x1 (Rect.unit (s := S4096x1024) (k0_off1 i) S512x1024.size (Facts₀.k0_off1_inb i))) x0 x2 := by
  unfold out0_A_3
  rw [View.read_writes_eq_canon _ _ _ (cover0_A_3 c i arg2 harg2 arg3 harg3 arg4 harg4 arg5 harg5 x0 x1 x2)]
  unfold kernelRun0_A
  dsimp only
  rw [View.canon_unit_zero zero_off]
  simp only [View.readAt_eq_ld, harg2.read_unread, harg3.read_unread, harg4.read_unread,
    View.ld_unit_zero (S := S2048x1024) zero_off, View.ld_unit_zero (S := S1x512) zero_off]

/-- Row coordinate of the left operand's entry met at output entry `j`: the output's row. -/
theorem lhs_row (j : S2048x512.Idx) (κ : dot_S2048x1024_S512x1024_S2048x512_1_1_0_0_n_n.contr.Idx) : (dot_S2048x1024_S512x1024_S2048x512_1_1_0_0_n_n.lhsIdx j κ 0).val = (j 0).val := by
  unfold DotDims.lhsIdx
  rw [dif_neg (show ¬(0 : Fin S2048x1024.rank) ∈ dot_S2048x1024_S512x1024_S2048x512_1_1_0_0_n_n.lhsBatch by decide),
    dif_pos (show (0 : Fin S2048x1024.rank) ∈ dot_S2048x1024_S512x1024_S2048x512_1_1_0_0_n_n.lhsNonContracting by decide)]
  rfl

/-- Row coordinate of the right operand's entry met at output entry `j`: the output's column. -/
theorem rhs_row (j : S2048x512.Idx) (κ : dot_S2048x1024_S512x1024_S2048x512_1_1_0_0_n_n.contr.Idx) : (dot_S2048x1024_S512x1024_S2048x512_1_1_0_0_n_n.rhsIdx j κ 0).val = (j 1).val := by
  unfold DotDims.rhsIdx
  rw [dif_neg (show ¬(0 : Fin S512x1024.rank) ∈ dot_S2048x1024_S512x1024_S2048x512_1_1_0_0_n_n.rhsBatch by decide),
    dif_pos (show (0 : Fin S512x1024.rank) ∈ dot_S2048x1024_S512x1024_S2048x512_1_1_0_0_n_n.rhsNonContracting by decide)]
  rfl

/-- The matrix product into a zero accumulator, at entry (p, q): the inner product over the 1024 features of row p of
    the left operand with row q of the right operand. -/
theorem product_apply (l : FVec Ideal S2048x1024 .bf16) (r : FVec Ideal S512x1024 .bf16) (p : Fin 2048) (q : Fin 512) :
    FloatOps.matmul dot_S2048x1024_S512x1024_S2048x512_1_1_0_0_n_n none l r (constant (F := Ideal) S2048x512 .f32 0x00000000#32) (ix2 p q)
      = ∑ k : Fin 1024, l (ix2 p k) * r (ix2 q k) := by
  rw [Ideal.matmul_constant_zero_apply, ← Equiv.sum_comp (contrEquiv1 dot_S2048x1024_S512x1024_S2048x512_1_1_0_0_n_n 1024 rfl rfl).symm]
  refine Finset.sum_congr rfl fun k _ => ?_
  have hk := contrEquiv1_symm_val dot_S2048x1024_S512x1024_S2048x512_1_1_0_0_n_n 1024 rfl rfl k
  have el : dot_S2048x1024_S512x1024_S2048x512_1_1_0_0_n_n.lhsIdx (ix2 p q) ((contrEquiv1 dot_S2048x1024_S512x1024_S2048x512_1_1_0_0_n_n 1024 rfl rfl).symm k) = ix2 p k :=
    funext fun a => Fin.ext (by
      match a with
      | ⟨0, _⟩ => exact lhs_row _ _
      | ⟨1, _⟩ => exact (dot_S2048x1024_S512x1024_S2048x512_1_1_0_0_n_n.lhsIdx_val_of_single rfl _ _).trans hk)
  have er : dot_S2048x1024_S512x1024_S2048x512_1_1_0_0_n_n.rhsIdx (ix2 p q) ((contrEquiv1 dot_S2048x1024_S512x1024_S2048x512_1_1_0_0_n_n 1024 rfl rfl).symm k) = ix2 q k :=
    funext fun a => Fin.ext (by
      match a with
      | ⟨0, _⟩ => exact rhs_row _ _
      | ⟨1, _⟩ => exact (dot_S2048x1024_S512x1024_S2048x512_1_1_0_0_n_n.rhsIdx_val_of_single rfl _ _).trans hk)
  rw [el, er]

/-- The step's arithmetic at entry (p, q) of the tile, over the extended reals. -/
theorem arith_apply (w : Vec Ideal S512x1024 .f32) (x : Vec Ideal S2048x1024 .f32) (bb : Vec Ideal S1x512 .f32)
    (p : Fin 2048) (q : Fin 512) :
    k0_pay1 (F := Ideal) w x bb (ix2 p q)
      = Ideal.tanh ((∑ k : Fin 1024, x (ix2 p k) * w (ix2 q k)) + bb (ix2 (0 : Fin 1) q)) := by
  unfold k0_pay1
  refine congrArg Ideal.tanh ?_
  refine congrArg₂ (· + ·) (product_apply _ _ p q) ?_
  refine (broadcastTo_1b_ab_apply _ _ p q).trans ?_
  exact congrFun (shapeCast_self bb _) _

end Cert.Dense.Kernel

end
-- ==== Proof.KernelArray.lean ====
/-
  From tiles to the whole result of the kernel.

  The grid has 4 × 8 steps. Step (i, j) reads rows 2048·i … 2048·i + 2047 of x, all of W, and bias entries
  512·j … 512·j + 511, and writes the tile of the result with those rows and those columns. Inside the step the rows
  of W used are 512·j … 512·j + 511, so entry (p, q) of the tile is the dense layer's entry
  (2048·i + p, 512·j + q). The 32 tiles tile the 8192 × 4096 result: the tile holding entry (s, n) is the one of
  step (s / 2048, n / 512). Hence after the run the result array is the dense layer of the three arguments.

  The bias reaches the kernel as a 1 × 4096 array, the 4096-vector recast with a leading unit axis; entry (0, n) of it
  is b[n].
-/
import proofs.«118267_j57492432224774_2_alg».proof.Proof.Gen.KernelIdeal.Value
import proofs.«118267_j57492432224774_2_alg».proof.Proof.KernelTile
import proofs.«118267_j57492432224774_2_alg».proof.Proof.Spec
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.Dense.Kernel

open Cert.KernelIdeal Cert.KernelIdeal.Gen

variable (m : (ℓ : Loc nD τ sig) → Buf (Elt Ideal) ℓ) (ρ : Dev nD → PrngReg)

/-- The step's arithmetic at any entry `y` of the tile. -/
theorem arith_at (w : Vec Ideal S512x1024 .f32) (x : Vec Ideal S2048x1024 .f32) (bb : Vec Ideal S1x512 .f32) (y : S2048x512.Idx) :
    k0_pay1 (F := Ideal) w x bb y
      = Ideal.tanh ((∑ k : Fin 1024, x (ix2 (y 0) k) * w (ix2 (y 1) k)) + bb (ix2 (0 : Fin 1) (y 1))) :=
  (congrArg (k0_pay1 (F := Ideal) w x bb) (eq_ix2 y)).trans (arith_apply w x bb (y 0) (y 1))

/-- Where each step's tiles sit, decided over the 32 steps: the tile of x follows the output tile's row block and
    spans all features; W and the bias row are taken from their first block along the axes they do not move on; the bias
    tile follows the output tile's column block; and the rows of W selected inside the step start at 512 times the
    output tile's column block. -/
theorem tile_places : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = win0_3.index t (1 : Fin 2)
    ∧ k0_off1 (grid0.coords t) (0 : Fin 2) = win0_3.index t (1 : Fin 2) * 512 ∧ k0_off1 (grid0.coords t) (1 : Fin 2) = 0
    ∧ win0_3.index t (0 : Fin 2) < 4 ∧ win0_3.index t (1 : Fin 2) < 8 :=
  (by decide +kernel : ∀ t : Fin grid0.N, _)

/-- Every pair of a row block and a column block is some step's output tile. -/
theorem tile_onto : ∀ (a : Fin 4) (b : Fin 8), ∃ t : Fin cfg0.N, win0_3.index t = ![a.val, b.val] :=
  (by decide +kernel : ∀ (a : Fin 4) (b : Fin 8), ∃ t : Fin grid0.N, win0_3.index t = ![a.val, b.val])

/-- The bias as the kernel's region finds it: the 4096-vector recast to one row. -/
theorem bias_row (c : Dev nD) :
    (V m c main_v0 : S1x4096.Idx → EReal) = shapeCast S1x4096 (m ((c : Thread nD τ).loc main_arg2)) Facts₀.shapeCasts_S4096_S1x4096 := by
  dsimp only [Gen.V, Gen.hostOps0]; after_results; rfl

/-- What step `t` writes back is its tile of the dense layer of the three arguments. -/
theorem flushed_eq (c : Dev nD) (t : Fin cfg0.N) :
    (dats m 0 c).flushed 3 t = ((cfg0.win 3).blk t).view.read (Elt Ideal)
      (Cert.Dense.layer (m ((c : Thread nD τ).loc main_arg0)) (m ((c : Thread nD τ).loc main_arg1)) (m ((c : Thread nD τ).loc main_arg2))) := by
  rw [Cert.KernelIdeal.Value.flushed3_A, tile_eq]
  obtain ⟨e0, e1, e2, e3, e4, e5, e6, e7, e8, e9⟩ := tile_places t
  funext y
  show k0_pay1 (F := Ideal) (View.ld (iblk m c 1 t) (Rect.unit (s := S4096x1024) (k0_off1 (grid0.coords t)) S512x1024.size (Facts₀.k0_off1_inb (grid0.coords t)))) (iblk m c 0 t) (iblk m c 2 t) y
    = Cert.Dense.layer (m ((c : Thread nD τ).loc main_arg0)) (m ((c : Thread nD τ).loc main_arg1)) (m ((c : Thread nD τ).loc main_arg2)) (((cfg0.win 3).blk t).view.emb y)
  refine (arith_at _ _ _ y).trans ?_
  unfold Cert.Dense.layer Cert.Dense.preact
  refine congrArg Ideal.tanh (congrArg₂ (· + ·) (Finset.sum_congr rfl fun k _ => congrArg₂ (· * ·) ?_ ?_) ?_)
  · show V m c main_arg0 (((cfg0.win 0).blk t).view.emb (ix2 (y 0) k)) = _
    rw [V_main_arg0]
    refine congrArg _ (funext fun a => Fin.ext ?_)
    match a with
    | ⟨0, _⟩ =>
      show win0_0.index t (0 : Fin 2) * 2048 + 1 * (y 0).val = win0_3.index t (0 : Fin 2) * 2048 + 1 * (y 0).val
      omega
    | ⟨1, _⟩ =>
      show win0_0.index t (1 : Fin 2) * 1024 + 1 * k.val = k.val
      omega
  · show V m c main_arg1 (((cfg0.win 1).blk t).view.emb
        ((Rect.unit (s := S4096x1024) (k0_off1 (grid0.coords t)) S512x1024.size (Facts₀.k0_off1_inb (grid0.coords t))).idx (ix2 (y 1) k))) = _
    rw [V_main_arg1]
    refine congrArg _ (funext fun a => Fin.ext ?_)
    match a with
    | ⟨0, _⟩ =>
      show win0_1.index t (0 : Fin 2) * 4096 + 1 * (k0_off1 (grid0.coords t) (0 : Fin 2) + 1 * (y 1).val)
        = win0_3.index t (1 : Fin 2) * 512 + 1 * (y 1).val
      omega
    | ⟨1, _⟩ =>
      show win0_1.index t (1 : Fin 2) * 1024 + 1 * (k0_off1 (grid0.coords t) (1 : Fin 2) + 1 * k.val) = k.val
      omega
  · show V m c main_v0 (((cfg0.win 2).blk t).view.emb (ix2 (0 : Fin 1) (y 1))) = _
    have hb : ((cfg0.win 2).blk t).view.emb (ix2 (0 : Fin 1) (y 1)) = ix2 (0 : Fin 1) (((cfg0.win 3).blk t).view.emb y 1) :=
      funext fun a => Fin.ext (by
        match a with
        | ⟨0, _⟩ =>
          show win0_2.index t (0 : Fin 2) * 1 + 1 * 0 = 0
          omega
        | ⟨1, _⟩ =>
          show win0_2.index t (1 : Fin 2) * 512 + 1 * (y 1).val = win0_3.index t (1 : Fin 2) * 512 + 1 * (y 1).val
          omega)
    rw [hb]
    exact (congrFun (bias_row m c) _).trans (shapeCast_a_1a_apply _ _ _ _)

/-- An entry of the result lies in step `t`'s tile exactly when, on each axis, its coordinate lies in the tile's range. -/
theorem mem_tile (t : Fin cfg0.N) (i : S8192x4096.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v1).slice (win0_3.rect t)).set ↔ _
  rw [View.set_slice_whole, Rect.mem_set_unit]
  exact Iff.rfl

/-- The tiles cover the result: entry (s, n) lies in the tile of the step with row block s / 2048 and column
    block n / 512. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := tile_onto ⟨(i 0).val / 2048, by omega⟩ ⟨(i 1).val / 512, by omega⟩
  have q0 : win0_3.index t (0 : Fin 2) = (i 0).val / 2048 := congrFun ht 0
  have q1 : win0_3.index t (1 : Fin 2) = (i 1).val / 512 := congrFun ht 1
  refine ⟨t, flush0_3 t, ?_⟩
  rw [mem_tile]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 512 ≤ (i 1).val ∧ (i 1).val < win0_3.index t (1 : Fin 2) * 512 + 512
    omega

/-- After the run the result array is the dense layer of the three arguments. -/
theorem result_eq (c : Dev nD) :
    (dats m 0 c).arrAt 3 cfg0.N
      = Cert.Dense.layer (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: every weakly fair execution ends with the result array at the dense layer of the arguments and
    the arguments as they were. -/
theorem run : θ_run defs (onTc (τ := τ) (main (F := Ideal))) ⟨m, fun _ => 0, ρ⟩ fun r => ∀ c : Dev nD,
      r.2.mem ((c : Thread nD τ).loc main_v1)
        = Cert.Dense.layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_eq m c), (h c).2⟩)
    (Cert.KernelIdeal.Value.run_blocks m ρ)

end Cert.Dense.Kernel

end
-- ==== Proof.lean ====
/-
  The kernel and its reference compute the same dense layer.

  Both programs take an activation matrix x (8192 × 1024), a weight matrix W (4096 × 1024) and a bias vector b (4096)
  and return the 8192 × 4096 matrix whose entry (s, n) is  tanh ( Σ_k x[s, k] · W[n, k] + b[n] ).

  The reference does it with one contraction over the features, a bias spread along the rows, and the hyperbolic
  tangent. The kernel walks a 4 × 8 grid: step (i, j) multiplies a block of 2048 rows of x with the 512 rows of W
  numbered from 512·j, adds the matching 512 bias entries, applies the hyperbolic tangent, and writes one tile of
  the result; the 32 tiles tile it. Over the extended reals a sum of products is the same number however it is
  tiled, and narrowing the operands to sixteen-bit floats before the product is the identity, so each tile entry is
  the dense layer's entry there. No law used needs the inputs to be finite.

  The three frame statements are the generated ones (the reference's is its run with the result forgotten); the
  idealization rewrote no operation, so the kernel's idealization statement is trivially true.
-/
import proofs.«118267_j57492432224774_2_alg».proof.Defs
import proofs.«118267_j57492432224774_2_alg».proof.Proof.Gen.Kernel
import proofs.«118267_j57492432224774_2_alg».proof.Proof.Gen.Kernel.Frame
import proofs.«118267_j57492432224774_2_alg».proof.Proof.Gen.KernelIdeal
import proofs.«118267_j57492432224774_2_alg».proof.Proof.Gen.KernelIdeal.Frame
import proofs.«118267_j57492432224774_2_alg».proof.Proof.Gen.KernelIdeal.Value
import proofs.«118267_j57492432224774_2_alg».proof.Proof.Gen.ReferenceIdeal
import proofs.«118267_j57492432224774_2_alg».proof.Proof.Gen.ReferenceIdeal.Run
import proofs.«118267_j57492432224774_2_alg».proof.Proof.Gen.ReferenceIdeal.Read
import proofs.«118267_j57492432224774_2_alg».proof.Proof.Gen.Pre_finite_inputs
import proofs.«118267_j57492432224774_2_alg».proof.Proof.Spec
import proofs.«118267_j57492432224774_2_alg».proof.Proof.RefDense
import proofs.«118267_j57492432224774_2_alg».proof.Proof.KernelTile
import proofs.«118267_j57492432224774_2_alg».proof.Proof.KernelArray
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel :=
  fun m ρ _ => Cert.Kernel.Gen.frame m ρ

/-- So does the kernel read over the extended reals. -/
theorem frame_kernel_ideal : Cert.frame_KernelIdeal :=
  fun m ρ _ => Cert.KernelIdeal.Gen.frame m ρ

/-- The reference terminates and leaves its arguments as they were: its run, with the result forgotten. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on x, W and b, the kernel and the reference both end with the dense layer of those
    arguments as their result. -/
theorem algebraic : Cert.algebraic_KernelIdeal_ReferenceIdeal := by
  intro m ρ m' ρ' _ hagree
  refine ⟨fun c => Cert.Dense.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Dense.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.Dense.Reference.value_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
